-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x4096x2048 .f32) (main_arg1 : FVec F S2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4x4096x2048 : Shape := ⟨3, ![4, 4096, 2048]⟩
abbrev S2048x2048 : Shape := ⟨2, ![2048, 2048]⟩
abbrev S_ : Shape := ⟨0, ![]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩

abbrev nBuf : Space → Nat
  | .hbm => 25
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .bf16⟩
  | .hbm, ⟨22, _⟩ => ⟨S16384x2048, .f32⟩
  | .hbm, ⟨23, _⟩ => ⟨S16384x2048, .f32⟩
  | .hbm, ⟨24, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S4x4096x2048 : S16384x2048.ShapeCasts S4x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v10) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S_, .f32⟩
  | .hbm, ⟨3, _⟩ => ⟨S4x4096, .f32⟩
  | .hbm, ⟨4, _⟩ => ⟨S4x4096x1, .f32⟩
  | .hbm, ⟨5, _⟩ => ⟨S_, .f32⟩
  | .hbm, ⟨6, _⟩ => ⟨S4x4096x1, .f32⟩
  | .hbm, ⟨7, _⟩ => ⟨S4x4096x1, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S2048x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_cst_8 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  reducesTo_S2048x2048_S_d0_1 : S2048x2048.ReducesTo [0, 1] S_
  bcast_S_S2048x2048 : S_.BroadcastsInDim S2048x2048 (![] : Fin 0 → Fin S2048x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.RowSpec.lean ====
/-
  The function both programs compute, written over the extended reals with no program in sight.

  A row `r` of length 2048 is centred on its mean, scaled by the reciprocal square root of its (biased) variance plus a
  small constant, and the normalized row is then dotted with a row `q` of the quantized weight:

      mean r   = (∑ k, r k) / 2048
      var r    = (∑ k, (r k − mean r)²) / 2048
      normed r = (r k − mean r) · (var r + ε)^(−1/2)
      dotRow r q = ∑ k, normed r k · q k

  The divisor 2048 and the constant ε are kept as the single-precision words the two programs both write
  (`0x45000000`, `0x3727C5AC`): the same word on both sides never has to be evaluated. The result array has, at
  `(b, s, o)`, row `(b, s)` of the input dotted with row `o` of the weight.
-/
import Idealize.ShloMosaic.PureOps.Ideal
import Idealize.ShloMosaic.Lib.ValueIdx

noncomputable section

open scoped BigOperators

namespace Cert.RowNorm

open Idealize.ShloMosaic Idealize.ShloMosaic.ValueIdx

/-- The row length 2048, as the word both programs divide by. -/
def len : EReal := Ideal.ofBits .f32 0x45000000#32

/-- The constant added to the variance, as the word both programs add. -/
def eps : EReal := Ideal.ofBits .f32 0x3727C5AC#32

/-- The mean of a row. -/
def mean (r : Fin 2048 → EReal) : EReal := Ideal.div (∑ k : Fin 2048, r k) len

/-- The biased variance of a row: the mean of the squared deviations from the mean. -/
def var (r : Fin 2048 → EReal) : EReal := Ideal.div (∑ k : Fin 2048, (r k - mean r) * (r k - mean r)) len

/-- The reciprocal standard deviation of a row, regularized by `eps`. -/
def scale (r : Fin 2048 → EReal) : EReal := Ideal.rsqrt (var r + eps)

/-- The normalized row. -/
def normed (r : Fin 2048 → EReal) (k : Fin 2048) : EReal := (r k - mean r) * scale r

/-- The normalized row dotted with a weight row. -/
def dotRow (r q : Fin 2048 → EReal) : EReal := ∑ k : Fin 2048, normed r k * q k

/-- One entry of the result: row `(b, s)` of `x`, normalized, dotted with row `o` of `Q`. -/
def linearAt (x : (⟨3, ![4, 4096, 2048]⟩ : Shape).Idx → EReal) (Q : (⟨2, ![2048, 2048]⟩ : Shape).Idx → EReal)
    (b : Fin 4) (s : Fin 4096) (o : Fin 2048) : EReal :=
  dotRow (fun k => x (ix3 b s k)) (fun k => Q (ix2 o k))

/-- The whole result array. -/
def linear (x : (⟨3, ![4, 4096, 2048]⟩ : Shape).Idx → EReal) (Q : (⟨2, ![2048, 2048]⟩ : Shape).Idx → EReal) :
    (⟨3, ![4, 4096, 2048]⟩ : Shape).Idx → EReal :=
  fun i => linearAt x Q (i 0) (i 1) (i 2)

theorem linear_ix3 (x : (⟨3, ![4, 4096, 2048]⟩ : Shape).Idx → EReal) (Q : (⟨2, ![2048, 2048]⟩ : Shape).Idx → EReal)
    (b : Fin 4) (s : Fin 4096) (o : Fin 2048) : linear x Q (ix3 b s o) = linearAt x Q b s o := rfl

end Cert.RowNorm

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.LibRowSums.lean ====
/-
  A sum along the rows of a matrix, read at a row.

  A kernel that reduces a `[a, b]` block along its second axis (a per-row sum: the numerator of a row mean, of a row
  variance, of a row norm) gets an `[a]` vector whose entry `p` is the sum over `k` of the block at `(p, k)`. The lemma
  says so for any extents, with the indices written by coordinates, for a single-precision sum started from the zero
  word.
-/
import Idealize.ShloMosaic.PureOps.Ideal.Laws
import Idealize.ShloMosaic.Lib.ValueIdx

noncomputable section

open scoped BigOperators

namespace Cert.RowSums

open Idealize.ShloMosaic Idealize.ShloMosaic.ValueIdx

/-- An `[a, b]` array of single-precision values summed along its second axis into `[a]`, starting from the zero word,
    reads at `p` the sum over `k : Fin b` of the array at `(p, k)`. The hypothesis on the start word is typed as a printed
    program spells its proof (the word equal to itself). -/
theorem multiReduction_add_rows_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (funext fun c => Fin.ext (by
    match c with
    | ⟨0, _⟩ => rfl
    | ⟨1, _⟩ => rfl))

end Cert.RowSums

end
-- ==== Proof.BodyValue.lean ====
/-
  The kernel body's stored value, read at one entry.

  The body loads a block of 512 rows and the whole transposed weight, normalizes each row, and multiplies. Written
  stage by stage (`meanCol`, `centred`, `varCol`, `scaleCol`, `normedBlk`), each stage read at an index is the
  corresponding piece of the specification applied to that row: the column-shaped per-row scalars sit at `(p, 0)`, a row
  sum is a sum over the second coordinate, and the matrix product at `(p, o)` is the sum over `k` of the left operand at
  `(p, k)` times the right operand at `(k, o)`. Rounding the normalized block to a narrower format is the identity on the
  extended reals.
-/
import proofs.«173513_j33174327394884_1_alg».proof.Proof.Gen.KernelIdeal.Skeleton
import proofs.«173513_j33174327394884_1_alg».proof.Proof.RowSpec
import proofs.«173513_j33174327394884_1_alg».proof.Proof.LibColumnLayouts
import proofs.«173513_j33174327394884_1_alg».proof.Proof.LibRowSums
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.RowNorm Cert.ColumnLayouts

/-! ## The two non-pointwise operations at an index -/

/-- A sum along the rows of a block: at row `p`, the sum over the row's entries. -/
theorem rowSum_apply (v : FVec Ideal S512x2048 .f32) (h : S512x2048.Reduces [1] S512) (hφ : FKind.Formats .f32)
    (hacc : (0x00000000#32 : BitVec 32) = 0x00000000#32) (p : Fin 512) :
    multiReduction .add [1] S512 v 0x00000000#32 h hφ hacc (ix1 p) = ∑ k : Fin 2048, v (ix2 p k) :=
  Cert.RowSums.multiReduction_add_rows_apply v h hφ hacc p

theorem lhs_row (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

theorem lhs_col (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q

theorem rhs_row (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q

theorem rhs_col (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The matrix product into a zero accumulator: at `(p, o)`, the sum over `k` of left `(p, k)` times right `(k, o)`. -/
theorem product_apply (a : FVec Ideal S512x2048 .bf16) (b : FVec Ideal S2048x2048 .bf16) (p : Fin 512) (o : Fin 2048) :
    matmul dot_S512x2048_S2048x2048_S512x2048_1_0_0_1_n_n none a b (constant S512x2048 .f32 0x00000000#32) (ix2 p o)
      = ∑ k : Fin 2048, a (ix2 p k) * b (ix2 k o) := by
  simp only [matmul]
  rw [Ideal.matmul_constant_zero_apply,
    ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx (ix2 p o)
      ((ValueIdx.contrEquiv1 dot_S512x2048_S2048x2048_S512x2048_1_0_0_1_n_n 2048 rfl rfl).symm k) = ix2 p k :=
    funext fun c => Fin.ext (by
      match c with
      | ⟨0, _⟩ => exact lhs_row _ _
      | ⟨1, _⟩ => exact (lhs_col _ _).trans hk)
  have er : dot_S512x2048_S2048x2048_S512x2048_1_0_0_1_n_n.rhsIdx (ix2 p o)
      ((ValueIdx.contrEquiv1 dot_S512x2048_S2048x2048_S512x2048_1_0_0_1_n_n 2048 rfl rfl).symm k) = ix2 k o :=
    funext fun c => Fin.ext (by
      match c with
      | ⟨0, _⟩ => exact (rhs_row _ _).trans hk
      | ⟨1, _⟩ => exact rhs_col _ _)
  rw [el, er]

/-! ## The body, stage by stage -/

/-- The per-row means, as a column. -/
def meanCol (v : FVec Ideal S512x2048 .f32) : FVec Ideal S512x1 .f32 :=
  divf (shapeCast S512x1 (multiReduction .add [1] S512 v 0x00000000#32 reduces_S512x2048_S512 (.inl rfl) rfl) shapeCasts_S512_S512x1)
    (broadcast S512x1 (Scalar.ofBits .f32 0x45000000#32))

/-- The block with each row's mean subtracted. -/
def centred (v : FVec Ideal S512x2048 .f32) : FVec Ideal S512x2048 .f32 :=
  subf v (broadcastTo S512x2048 (meanCol v) broadcasts_S512x1_S512x2048)

/-- The per-row variances, as a column. -/
def varCol (v : FVec Ideal S512x2048 .f32) : FVec Ideal S512x1 .f32 :=
  divf (shapeCast S512x1 (multiReduction .add [1] S512 (mulf (centred v) (centred v)) 0x00000000#32 reduces_S512x2048_S512 (.inl rfl) rfl)
      shapeCasts_S512_S512x1)
    (broadcast S512x1 (Scalar.ofBits .f32 0x45000000#32))

/-- The per-row reciprocal standard deviations, as a column. -/
def scaleCol (v : FVec Ideal S512x2048 .f32) : FVec Ideal S512x1 .f32 :=
  rsqrt (addf (varCol v) (broadcast S512x1 (Scalar.ofBits .f32 0x3727C5AC#32)))

/-- The normalized block. -/
def normedBlk (v : FVec Ideal S512x2048 .f32) : FVec Ideal S512x2048 .f32 :=
  mulf (centred v) (broadcastTo S512x2048 (scaleCol v) broadcasts_S512x1_S512x2048)

/-- The stored value is the product of the normalized block (rounded to the narrower format) with the weight block. -/
theorem pay_eq (x0 : Vec Ideal S512x2048 .f32) (x1 : Vec Ideal S2048x2048 .bf16) :
    k0_pay1 (F := Ideal) x0 x1
      = matmul dot_S512x2048_S2048x2048_S512x2048_1_0_0_1_n_n none
          (truncf .bf16 (normedBlk (shapeCast S512x2048 x0 shapeCasts_S512x2048_S512x2048)) bitsLt_bf16_f32)
          (shapeCast S2048x2048 x1 shapeCasts_S2048x2048_S2048x2048 : FVec Ideal S2048x2048 .bf16)
          (constant S512x2048 .f32 0x00000000#32) := rfl

/-! ## Each stage at an index -/

theorem meanCol_apply (v : FVec Ideal S512x2048 .f32) (p : Fin 512) :
    meanCol v (ix2 p (0 : Fin 1)) = mean (fun k => v (ix2 p k)) := by
  unfold meanCol mean len
  show Ideal.div (shapeCast S512x1 _ shapeCasts_S512_S512x1 (ix2 p (0 : Fin 1))) (Ideal.ofBits .f32 0x45000000#32) = _
  rw [shapeCast_a_a1_apply, rowSum_apply]

theorem centred_apply (v : FVec Ideal S512x2048 .f32) (p : Fin 512) (k : Fin 2048) :
    centred v (ix2 p k) = v (ix2 p k) - mean (fun j => v (ix2 p j)) := by
  unfold centred
  show v (ix2 p k) - broadcastTo S512x2048 (meanCol v) broadcasts_S512x1_S512x2048 (ix2 p k) = _
  rw [broadcastTo_a1_ab_apply, meanCol_apply]

theorem varCol_apply (v : FVec Ideal S512x2048 .f32) (p : Fin 512) :
    varCol v (ix2 p (0 : Fin 1)) = var (fun k => v (ix2 p k)) := by
  unfold varCol var len
  show Ideal.div (shapeCast S512x1 _ shapeCasts_S512_S512x1 (ix2 p (0 : Fin 1))) (Ideal.ofBits .f32 0x45000000#32) = _
  rw [shapeCast_a_a1_apply, rowSum_apply]
  refine congrArg (Ideal.div · _) (Finset.sum_congr rfl fun k _ => ?_)
  show centred v (ix2 p k) * centred v (ix2 p k) = _
  rw [centred_apply]

theorem scaleCol_apply (v : FVec Ideal S512x2048 .f32) (p : Fin 512) :
    scaleCol v (ix2 p (0 : Fin 1)) = scale (fun k => v (ix2 p k)) := by
  unfold scaleCol scale eps
  show Ideal.rsqrt (varCol v (ix2 p (0 : Fin 1)) + Ideal.ofBits .f32 0x3727C5AC#32) = _
  rw [varCol_apply]

theorem normedBlk_apply (v : FVec Ideal S512x2048 .f32) (p : Fin 512) (k : Fin 2048) :
    normedBlk v (ix2 p k) = normed (fun j => v (ix2 p j)) k := by
  unfold normedBlk normed
  show centred v (ix2 p k) * broadcastTo S512x2048 (scaleCol v) broadcasts_S512x1_S512x2048 (ix2 p k) = _
  rw [broadcastTo_a1_ab_apply, scaleCol_apply, centred_apply]

/-- THE BODY AT AN ENTRY: row `p` of the loaded block, normalized, dotted with column `o` of the loaded weight block. -/
theorem pay_apply (x0 : Vec Ideal S512x2048 .f32) (x1 : Vec Ideal S2048x2048 .bf16) (p : Fin 512) (o : Fin 2048) :
    k0_pay1 (F := Ideal) x0 x1 (ix2 p o) = dotRow (fun k => x0 (ix2 p k)) (fun k => x1 (ix2 k o)) := by
  rw [pay_eq, product_apply]
  unfold dotRow
  refine Finset.sum_congr rfl fun k _ => ?_
  rw [shapeCast_self, shapeCast_self]
  show normedBlk x0 (ix2 p k) * x1 (ix2 k o) = _
  rw [normedBlk_apply]

end Cert.KernelIdeal.Body

end
-- ==== Proof.KernelArray.lean ====
/-
  From blocks to the array: what the kernel's output array holds after all 32 grid points.

  Point `t` reads rows `512·t … 512·t + 511` of the row-shaped input and the whole transposed weight, and writes back
  the same rows of the output. Entry `(p, o)` of what it writes is row `p` of its input block, normalized, dotted with
  column `o` of the weight — that is entry `(512·t + p, o)` of ONE function of the two arrays (`rowsOut`). The 32 blocks
  cover every row (row `r` lies in the block of point `r / 512`), so the output array ends equal to that function.
-/
import proofs.«173513_j33174327394884_1_alg».proof.Proof.Gen.KernelIdeal.Frame
import proofs.«173513_j33174327394884_1_alg».proof.Proof.BodyValue
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.RowNorm Cert.KernelIdeal.Body
open Idealize.ShloMosaic.Pipeline (Dat)

/-- Entry `(r, o)` of the output: row `r` of `X`, normalized, dotted with column `o` of `W`. -/
def rowsOutAt (X : S16384x2048.Idx → EReal) (W : S2048x2048.Idx → EReal) (r : Fin 16384) (o : Fin 2048) : EReal :=
  dotRow (fun k => X (ix2 r k)) (fun k => W (ix2 k o))

/-- The output array as one function of the kernel's two input arrays. -/
def rowsOut (X : S16384x2048.Idx → EReal) (W : S2048x2048.Idx → EReal) : S16384x2048.Idx → EReal :=
  fun i => rowsOutAt X W (i 0) (i 1)

theorem rowsOut_ix2 (X : S16384x2048.Idx → EReal) (W : S2048x2048.Idx → EReal) (r : Fin 16384) (o : Fin 2048) :
    rowsOut X W (ix2 r o) = rowsOutAt X W r o := rfl

/-- The body's value at an entry of a block whose rows are rows of `X` and whose weight block is `W`. -/
theorem block_entry (X : S16384x2048.Idx → EReal) (W : S2048x2048.Idx → EReal)
    (x0 : Vec Ideal S512x2048 .f32) (x1 : Vec Ideal S2048x2048 .bf16) (j : S512x2048.Idx) (i : S16384x2048.Idx)
    (p : Fin 512) (o : Fin 2048) (r : Fin 16384) (hj : j = ix2 p o) (hi : i = ix2 r o)
    (h0 : ∀ k : Fin 2048, x0 (ix2 p k) = X (ix2 r k)) (h1 : ∀ k : Fin 2048, x1 (ix2 k o) = W (ix2 k o)) :
    k0_pay1 (F := Ideal) x0 x1 j = rowsOut X W i := by
  subst hj hi
  rw [pay_apply, rowsOut_ix2]
  unfold rowsOutAt
  rw [show (fun k => x0 (ix2 p k)) = fun k => X (ix2 r k) from funext h0,
    show (fun k => x1 (ix2 k o)) = fun k => W (ix2 k o) from funext h1]

variable (m : (ℓ : Loc nD τ sig) → Buf (Elt Ideal) ℓ)

theorem zero_off : (![0, 0] : Fin 2 → Nat) = fun _ => 0 := funext fun a => by fin_cases a <;> rfl

/-- The printed index maps, decided over the grid: the input rows and the output rows move with the point, the weight
    block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `rowsOut` of the two arrays as the region finds them. -/
theorem flushed_eq (c : Dev nD) (t : Fin cfg0.N) :
    (dats m 0 c).flushed 2 t
      = ((cfg0.win 2).blk t).view.read (Elt Ideal) (rowsOut (V m c main_v10) (V m c main_v9)) := by
  show (cfg0.win 2).cut (grid0.coords t) ((dats m 0 c).after 2 t) = _
  rw [after0_2]
  unfold out0_2
  rw [View.canon_unit_zero zero_off]
  simp only [View.ld_unit_zero (S := S512x2048) zero_off, View.ld_unit_zero (S := S2048x2048) zero_off]
  obtain ⟨e0, e1, e2, e3, e4, e5⟩ := idx_facts t
  funext j
  have hj0 : (j 0).val < 512 := (j 0).isLt
  have hj1 : (j 1).val < 2048 := (j 1).isLt
  have ht : t.val < 32 := lt_of_lt_of_eq t.isLt N_0
  show k0_pay1 (F := Ideal) (iblk m c 0 t) (iblk m c 1 t) j
    = rowsOut (V m c main_v10) (V m c main_v9) (((cfg0.win 2).blk t).view.emb j)
  refine block_entry (V m c main_v10) (V m c main_v9) (iblk m c 0 t) (iblk m c 1 t) j (((cfg0.win 2).blk t).view.emb j)
    ⟨(j 0).val, hj0⟩ ⟨(j 1).val, hj1⟩ ⟨t.val * 512 + (j 0).val, by omega⟩ ?_ ?_ ?_ ?_
  · exact funext fun a => Fin.ext (by
      match a with
      | ⟨0, _⟩ => rfl
      | ⟨1, _⟩ => rfl)
  · refine funext fun a => Fin.ext ?_
    match a with
    | ⟨0, _⟩ => show win0_2.index t (0 : Fin 2) * 512 + 1 * (j 0).val = t.val * 512 + (j 0).val; omega
    | ⟨1, _⟩ => show win0_2.index t (1 : Fin 2) * 2048 + 1 * (j 1).val = (j 1).val; omega
  · intro k
    show V m c main_v10 (((cfg0.win 0).blk t).view.emb (ix2 (⟨(j 0).val, hj0⟩ : Fin 512) k)) = V m c main_v10 _
    refine congrArg (V m c main_v10) (funext fun a => Fin.ext ?_)
    match a with
    | ⟨0, _⟩ => show win0_0.index t (0 : Fin 2) * 512 + 1 * (j 0).val = t.val * 512 + (j 0).val; omega
    | ⟨1, _⟩ => show win0_0.index t (1 : Fin 2) * 2048 + 1 * k.val = k.val; omega
  · intro k
    show V m c main_v9 (((cfg0.win 1).blk t).view.emb (ix2 k (⟨(j 1).val, hj1⟩ : Fin 2048))) = V m c main_v9 _
    refine congrArg (V m c main_v9) (funext fun a => Fin.ext ?_)
    match a with
    | ⟨0, _⟩ => show win0_1.index t (0 : Fin 2) * 2048 + 1 * k.val = k.val; omega
    | ⟨1, _⟩ => show win0_1.index t (1 : Fin 2) * 2048 + 1 * (j 1).val = (j 1).val; omega

/-- An index of the array is in point `t`'s block iff each coordinate is in the block's range on its axis. -/
theorem mem_blk (t : Fin cfg0.N) (i : S16384x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v11).slice (win0_2.rect t)).set ↔ _
  rw [View.set_slice_whole, Rect.mem_set_unit]
  exact Iff.rfl

/-- Every entry of the output lies in the block of some point: row `r` in that of point `r / 512`. -/
theorem covered (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ : ∃ t : Fin cfg0.N, t.val = (i 0).val / 512 :=
    ⟨⟨(i 0).val / 512, by rw [show cfg0.N = 32 from N_0]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2048 ≤ (i 1).val ∧ (i 1).val < win0_2.index t (1 : Fin 2) * 2048 + 2048
    omega

/-- THE OUTPUT ARRAY after the run. -/
theorem final (c : Dev nD) : (dats m 0 c).arrAt 2 cfg0.N = rowsOut (V m c main_v10) (V m c main_v9) :=
  (dats m 0 c).arrAt_eq_of_cover 2 (rowsOut (V m c main_v10) (V m c main_v9)) (fun t _ => flushed_eq m c t) covered

end Cert.KernelIdeal.Blocks

end
-- ==== Proof.EntryArrays.lean ====
/-
  What the two input arrays of the kernel hold when it is launched.

  Before the launch the program reshapes the input `[4, 4096, 2048]` to `[16384, 2048]` (the same entries in row-major
  order) and quantizes the weight: each entry is divided by the mean absolute value of the whole matrix (kept away from
  zero by a small floor), rounded to the nearest integer and clipped to `[−1, 1]`; the quantized matrix is then
  transposed and narrowed. `quant` names the quantization as ONE function of the weight; nothing below looks inside it.
-/
import proofs.«173513_j33174327394884_1_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo

/-- The ternary quantization of a weight matrix: divide by the floored mean absolute value, round to nearest (ties to
    even), clip to `[−1, 1]`. -/
def quant (w : FVec Ideal S2048x2048 .f32) : FVec Ideal S2048x2048 .f32 :=
  minimumf (broadcastInDim S2048x2048 ![] bcast_S_S2048x2048 (id (constant (F := Ideal) S_ .f32 0x3F800000#32)))
    (maximumf (broadcastInDim S2048x2048 ![] bcast_S_S2048x2048 (id (constant (F := Ideal) S_ .f32 0xBF800000#32)))
      (Host.roundeven (Host.divf w (broadcastInDim S2048x2048 ![] bcast_S_S2048x2048
        (maximumf (Host.divf (Host.reduceAdd (Host.absf w) (constant (F := Ideal) S_ .f32 0x00000000#32) reducesTo_S2048x2048_S_d0_1 h_S_)
          (constant (F := Ideal) S_ .f32 0x4A800000#32)) (constant (F := Ideal) S_ .f32 0x322BCC77#32))))))

variable (m : (ℓ : Loc nD τ sig) → Buf (Elt Ideal) ℓ)

/-- The kernel's first operand on entry: the input, reshaped to rows. -/
theorem entry_rows (c : Dev nD) :
    (V m c main_v10 : S16384x2048.Idx → EReal)
      = shapeCast S16384x2048 (m ((c : Thread nD τ).loc main_arg0)) shapeCasts_S4x4096x2048_S16384x2048 := by
  dsimp only [V, V0]
  simp only [hostOps0, hostOps0_1, hostOps0_2, hostOps0_3, hostOps0_4, List.flatten_cons, List.flatten_nil, List.append_nil,
    List.cons_append, List.nil_append]
  after_results
  rfl

/-- The kernel's second operand on entry: the quantized weight, transposed (and narrowed, which changes nothing here). -/
theorem entry_weight (c : Dev nD) :
    (V m c main_v9 : S2048x2048.Idx → EReal)
      = truncf .bf16 (transpose S2048x2048 [1, 0] (quant (m ((c : Thread nD τ).loc main_arg1))) transposes_S2048x2048_S2048x2048_1_0)
          bitsLt_bf16_f32 := by
  dsimp only [V, V0]
  simp only [hostOps0, hostOps0_1, hostOps0_2, hostOps0_3, hostOps0_4, List.flatten_cons, List.flatten_nil, List.append_nil,
    List.cons_append, List.nil_append]
  after_results
  rfl

end Cert.KernelIdeal.Entry

end
-- ==== Proof.KernelRun.lean ====
/-
  The whole idealized kernel program: its result as the specification's array.

  After the launch the program reshapes the `[16384, 2048]` output back to `[4, 4096, 2048]`. Entry `(b, s, o)` of the
  result is therefore entry `(4096·b + s, o)` of the kernel's output array: row `4096·b + s` of the row-shaped input —
  which is row `(b, s)` of the input — normalized, dotted with column `o` of the transposed quantized weight — which is
  row `o` of the quantized weight.
-/
import proofs.«173513_j33174327394884_1_alg».proof.Proof.KernelArray
import proofs.«173513_j33174327394884_1_alg».proof.Proof.EntryArrays
import Idealize.ShloMosaic.Lib.StableHlo.Run
import Idealize.ShloMosaic.Lib.ValueLayout

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.RowNorm Cert.KernelIdeal.Blocks Cert.KernelIdeal.Entry
open Idealize.ShloMosaic.StableHlo
open Idealize.ShloMosaic.Pipeline (Dat)

/-! ## The three layout changes at an entry -/

/-- Row `4096·b + s` of the row-shaped input is row `(b, s)` of the input. -/
theorem rows_entry (x : S4x4096x2048.Idx → EReal) (h : S4x4096x2048.ShapeCasts S16384x2048)
    (b : Fin 4) (s : Fin 4096) (k : Fin 2048) (r : Fin 16384) (hr : r.val = b.val * 4096 + s.val) :
    shapeCast S16384x2048 x h (ix2 r k) = x (ix3 b s k) :=
  shapeCast_apply x h _ _ (by
    rw [Shape.rowMajor_val_three, Shape.rowMajor_val_two]
    show (b.val * 4096 + s.val) * 2048 + k.val = r.val * 2048 + k.val
    rw [hr])

/-- Entry `(b, s, o)` of the result is entry `(4096·b + s, o)` of the kernel's output array. -/
theorem result_entry (A : S16384x2048.Idx → EReal) (h : S16384x2048.ShapeCasts S4x4096x2048)
    (b : Fin 4) (s : Fin 4096) (o : Fin 2048) (r : Fin 16384) (hr : r.val = b.val * 4096 + s.val) :
    shapeCast S4x4096x2048 A h (ix3 b s o) = A (ix2 r o) :=
  shapeCast_apply A h _ _ (by
    rw [Shape.rowMajor_val_two, Shape.rowMajor_val_three]
    show r.val * 2048 + o.val = (b.val * 4096 + s.val) * 2048 + o.val
    rw [hr])

/-- Entry `(k, o)` of the transposed (and narrowed) matrix is entry `(o, k)` of the matrix. -/
theorem weight_entry (Q : FVec Ideal S2048x2048 .f32) (h : S2048x2048.Transposes [1, 0] S2048x2048)
    (h' : FTy.bits .bf16 < FTy.bits .f32) (k o : Fin 2048) :
    (truncf .bf16 (transpose S2048x2048 [1, 0] Q h) h' : FVec Ideal S2048x2048 .bf16) (ix2 k o) = Q (ix2 o k) :=
  transpose_ix2_apply Q h k o

variable (m : (ℓ : Loc nD τ sig) → Buf (Elt Ideal) ℓ) (ρ : Dev nD → PrngReg)

/-! ## The kernel's output array, and the result after the final reshape -/

/-- The kernel's output array in terms of the program's arguments, entry by entry. -/
theorem out_entry (c : Dev nD) (b : Fin 4) (s : Fin 4096) (o : Fin 2048) (r : Fin 16384) (hr : r.val = b.val * 4096 + s.val) :
    rowsOut (V m c main_v10) (V m c main_v9) (ix2 r o)
      = linearAt (m ((c : Thread nD τ).loc main_arg0)) (quant (m ((c : Thread nD τ).loc main_arg1))) b s o := by
  rw [rowsOut_ix2]
  unfold rowsOutAt linearAt
  rw [show (fun k => V m c main_v10 (ix2 r k)) = fun k => m ((c : Thread nD τ).loc main_arg0) (ix3 b s k) from
      funext fun k => by rw [entry_rows]; exact rows_entry _ _ b s k r hr,
    show (fun k => V m c main_v9 (ix2 k o)) = fun k => quant (m ((c : Thread nD τ).loc main_arg1)) (ix2 o k) from
      funext fun k => by rw [entry_weight]; exact weight_entry _ _ _ k o]

/-- What the result buffer holds after the reshape that follows the launch. -/
theorem tail_eq (c : Dev nD) :
    Pipeline.afterTail₀ cfgs (dats m) 0 (V0 m) [hostOps1] c main_v12
      = shapeCast S4x4096x2048 (rowsOut (V m c main_v10) (V m c main_v9)) shapeCasts_S16384x2048_S4x4096x2048 := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.devRef .tc main_v11)
      = rowsOut (V m c main_v10) (V m c main_v9) :=
    (Pipeline.withArrays_arr spec0 launch0.win.arr_inj c _ _ 2).trans (final m c)
  rw [hw]
  rfl

/-- The reshaped output array is the specification's array of the program's arguments. -/
theorem result_eq (c : Dev nD) :
    shapeCast S4x4096x2048 (rowsOut (V m c main_v10) (V m c main_v9)) shapeCasts_S16384x2048_S4x4096x2048
      = linear (m ((c : Thread nD τ).loc main_arg0)) (quant (m ((c : Thread nD τ).loc main_arg1))) := by
  funext i
  obtain ⟨b, s, o, rfl⟩ : ∃ (b : Fin 4) (s : Fin 4096) (o : Fin 2048), i = ix3 b s o := ⟨i 0, i 1, i 2, eq_ix3 i⟩
  have hb : b.val < 4 := b.isLt
  have hs : s.val < 4096 := s.isLt
  rw [result_entry _ _ b s o ⟨b.val * 4096 + s.val, by omega⟩ rfl, out_entry m c b s o _ rfl, linear_ix3]

/-! ## The run -/

/-- Every weakly fair execution of the idealized kernel program terminates with its result at the specification's array of
    its arguments — the input normalized row by row and applied to the quantized weight — and its arguments unchanged. -/
theorem run : θ_run defs (onTc (τ := τ) (main (F := Ideal))) ⟨m, fun _ => 0, ρ⟩ fun r => ∀ c : Dev nD,
      r.2.mem ((c.tc : Thread nD τ).loc main_v12)
        = linear (m ((c.tc : Thread nD τ).loc main_arg0)) (quant (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v12 (Pipeline.mem_restRefs_of main_v12 (by decide) (by decide))).trans ((tail_eq m c).trans (result_eq m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Whole

end
-- ==== Proof.RefValue.lean ====
/-
  The reference's result, read at one entry.

  The reference normalizes every row of the `[4, 4096, 2048]` input (mean and variance along the last axis, kept as
  `[4, 4096, 1]` columns and spread back), quantizes the weight, and contracts the last axis of the normalized input with
  the second axis of the quantized weight. Read stage by stage at `(b, s, ·)`, the row statistics are the specification's
  `mean`, `var` and `scale` of row `(b, s)`, the normalized entry is `normed`, and the contraction is `dotRow` against
  row `o` of the quantized weight. The quantized weight itself is left as the stage the generated reading names.
-/
import proofs.«173513_j33174327394884_1_alg».proof.Proof.Gen.ReferenceIdeal.Read
import proofs.«173513_j33174327394884_1_alg».proof.Proof.RowSpec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.RowNorm

variable (x0 : (⟨S4x4096x2048, .f32⟩ : BufTy).Contents (Elt Ideal))

/-- A row's sum with the zero it starts from: at `(b, s)`, the sum of row `(b, s)`. -/
theorem rowSum_apply (b : Fin 4) (s : Fin 4096) :
    val_main_v0 (F := Ideal) x0 (ix2 b s) = ∑ k : Fin 2048, x0 (ix3 b s k) := by
  rw [val_main_v0_apply, val_main_cst_apply]
  show Ideal.ofBits .f32 0x00000000#32 + _ = _
  rw [Ideal.ofBits_zero_f32, zero_add]
  exact Finset.sum_congr rfl fun k _ => congrArg x0 (funext fun a => Fin.ext (by
    match a with
    | ⟨0, _⟩ => rfl
    | ⟨1, _⟩ => rfl
    | ⟨2, _⟩ => rfl))

/-- The mean column at `(b, s, 0)` is the mean of row `(b, s)`. -/
theorem mean_apply (b : Fin 4) (s : Fin 4096) :
    val_main_v3 (F := Ideal) x0 (ix3 b s (0 : Fin 1)) = mean (fun k => x0 (ix3 b s k)) := by
  rw [val_main_v3_apply, val_main_v1_apply, val_main_v2_apply, val_main_cst_0_apply]
  have e : idx_main_v1 (ix3 b s (0 : Fin 1)) = ix2 b s := funext fun a => Fin.ext (by
    match a with
    | ⟨0, _⟩ => rfl
    | ⟨1, _⟩ => rfl)
  rw [e, rowSum_apply]
  rfl

/-- The centred input at `(b, s, k)`. -/
theorem centred_apply (b : Fin 4) (s : Fin 4096) (k : Fin 2048) :
    val_main_v5 (F := Ideal) x0 (ix3 b s k) = x0 (ix3 b s k) - mean (fun j => x0 (ix3 b s j)) := by
  rw [val_main_v5_apply, val_main_v4_apply]
  have e : idx_main_v4 (ix3 b s k) = ix3 b s (0 : Fin 1) := funext fun a => Fin.ext (by
    match a with
    | ⟨0, _⟩ => rfl
    | ⟨1, _⟩ => rfl
    | ⟨2, _⟩ => rfl)
  rw [e, mean_apply]
  rfl

/-- The same value is computed a second time for the product. -/
theorem centred'_apply (b : Fin 4) (s : Fin 4096) (k : Fin 2048) :
    val_main_v12 (F := Ideal) x0 (ix3 b s k) = x0 (ix3 b s k) - mean (fun j => x0 (ix3 b s j)) := by
  rw [val_main_v12_apply, val_main_v11_apply]
  have e : idx_main_v11 (ix3 b s k) = ix3 b s (0 : Fin 1) := funext fun a => Fin.ext (by
    match a with
    | ⟨0, _⟩ => rfl
    | ⟨1, _⟩ => rfl
    | ⟨2, _⟩ => rfl)
  rw [e, mean_apply]
  rfl

/-- The sum of squared deviations at `(b, s)`. -/
theorem sqSum_apply (b : Fin 4) (s : Fin 4096) :
    val_main_v7 (F := Ideal) x0 (ix2 b s)
      = ∑ k : Fin 2048, (x0 (ix3 b s k) - mean (fun j => x0 (ix3 b s j))) * (x0 (ix3 b s k) - mean (fun j => x0 (ix3 b s j))) := by
  rw [val_main_v7_apply, val_main_cst_1_apply]
  show Ideal.ofBits .f32 0x00000000#32 + _ = _
  rw [Ideal.ofBits_zero_f32, zero_add]
  refine Finset.sum_congr rfl fun k _ => ?_
  have e : idx_main_v7 (ix2 b s) k = ix3 b s k := funext fun a => Fin.ext (by
    match a with
    | ⟨0, _⟩ => rfl
    | ⟨1, _⟩ => rfl
    | ⟨2, _⟩ => rfl)
  rw [e, val_main_v6_apply, centred_apply]
  rfl

/-- The variance column at `(b, s, 0)`. -/
theorem var_apply (b : Fin 4) (s : Fin 4096) :
    val_main_v10 (F := Ideal) x0 (ix3 b s (0 : Fin 1)) = var (fun k => x0 (ix3 b s k)) := by
  rw [val_main_v10_apply, val_main_v8_apply, val_main_v9_apply, val_main_cst_2_apply]
  have e : idx_main_v8 (ix3 b s (0 : Fin 1)) = ix2 b s := funext fun a => Fin.ext (by
    match a with
    | ⟨0, _⟩ => rfl
    | ⟨1, _⟩ => rfl)
  rw [e, sqSum_apply]
  rfl

/-- The reciprocal standard deviation column at `(b, s, 0)`. -/
theorem scale_apply (b : Fin 4) (s : Fin 4096) :
    val_main_v15 (F := Ideal) x0 (ix3 b s (0 : Fin 1)) = scale (fun k => x0 (ix3 b s k)) := by
  rw [val_main_v15_apply, val_main_v14_apply, val_main_v13_apply, val_main_cst_3_apply, var_apply]
  rfl

/-- The normalized input at `(b, s, k)`. -/
theorem normed_apply (b : Fin 4) (s : Fin 4096) (k : Fin 2048) :
    val_main_v17 (F := Ideal) x0 (ix3 b s k) = normed (fun j => x0 (ix3 b s j)) k := by
  rw [val_main_v17_apply, val_main_v16_apply, centred'_apply]
  have e : idx_main_v16 (ix3 b s k) = ix3 b s (0 : Fin 1) := funext fun a => Fin.ext (by
    match a with
    | ⟨0, _⟩ => rfl
    | ⟨1, _⟩ => rfl
    | ⟨2, _⟩ => rfl)
  rw [e, scale_apply]
  rfl

/-- THE REFERENCE'S RESULT is the specification's array, at the quantized weight the reference computes. -/
theorem result_eq (x1 : (⟨S2048x2048, .f32⟩ : BufTy).Contents (Elt Ideal)) :
    val_main_v26 (F := Ideal) x0 x1 = linear x0 (val_main_v25 (F := Ideal) x1) := by
  funext i
  obtain ⟨b, s, o, rfl⟩ : ∃ (b : Fin 4) (s : Fin 4096) (o : Fin 2048), i = ix3 b s o := ⟨i 0, i 1, i 2, eq_ix3 i⟩
  rw [val_main_v26_apply, linear_ix3]
  unfold linearAt dotRow
  refine Finset.sum_congr rfl fun k _ => ?_
  have el : lidx_main_v26 (ix3 b s o) k = ix3 b s k := funext fun a => Fin.ext (by
    match a with
    | ⟨0, _⟩ => rfl
    | ⟨1, _⟩ => rfl
    | ⟨2, _⟩ => rfl)
  have er : ridx_main_v26 (ix3 b s o) k = ix2 o k := funext fun a => Fin.ext (by
    match a with
    | ⟨0, _⟩ => rfl
    | ⟨1, _⟩ => rfl)
  rw [el, er, normed_apply]

end Cert.ReferenceIdeal.RefValue

end
-- ==== Proof.lean ====
/-
  A layer normalization fused with a ternary-weight linear map, against its plain reference.

  Both programs take an input `x : [4, 4096, 2048]` and a weight `w : [2048, 2048]`. Every row of `x` (along the last
  axis) is centred on its mean and scaled by the reciprocal square root of its biased variance plus a small constant;
  the weight is quantized to `{−1, 0, 1}` (divide by the floored mean absolute value, round, clip); and the result at
  `(b, s, o)` is the normalized row `(b, s)` dotted with row `o` of the quantized weight (Proof/RowSpec.lean).

  The kernel program reshapes `x` to 16384 rows, transposes the quantized weight, normalizes and multiplies 512 rows at a
  time, and reshapes back; the reference does the same arithmetic on whole arrays with one contraction. Over the extended
  reals the two are literally the same sums of the same products: no law of arithmetic is needed beyond reading each
  side index by index (the narrowing of the normalized rows and of the weight before the product is the identity there),
  so the precondition is never opened.

    * Proof/BodyValue.lean   — the kernel body's stored value at an entry;
    * Proof/EntryArrays.lean — what the kernel's two operands hold at launch, the quantization named as one function;
    * Proof/KernelArray.lean — the 32 blocks written back make up one array;
    * Proof/KernelRun.lean   — the reshape after the launch, and the kernel program's run;
    * Proof/RefValue.lean    — the reference's result at an entry.
-/
import proofs.«173513_j33174327394884_1_alg».proof.Defs
import proofs.«173513_j33174327394884_1_alg».proof.Proof.Gen.Kernel
import proofs.«173513_j33174327394884_1_alg».proof.Proof.Gen.Kernel.Skeleton
import proofs.«173513_j33174327394884_1_alg».proof.Proof.Gen.Kernel.Launch
import proofs.«173513_j33174327394884_1_alg».proof.Proof.Gen.Kernel.Points
import proofs.«173513_j33174327394884_1_alg».proof.Proof.Gen.Kernel.Frame
import proofs.«173513_j33174327394884_1_alg».proof.Proof.Gen.KernelIdeal
import proofs.«173513_j33174327394884_1_alg».proof.Proof.Gen.KernelIdeal.Skeleton
import proofs.«173513_j33174327394884_1_alg».proof.Proof.Gen.KernelIdeal.Launch
import proofs.«173513_j33174327394884_1_alg».proof.Proof.Gen.KernelIdeal.Points
import proofs.«173513_j33174327394884_1_alg».proof.Proof.Gen.KernelIdeal.Frame
import proofs.«173513_j33174327394884_1_alg».proof.Proof.Gen.ReferenceIdeal
import proofs.«173513_j33174327394884_1_alg».proof.Proof.Gen.ReferenceIdeal.Run
import proofs.«173513_j33174327394884_1_alg».proof.Proof.Gen.ReferenceIdeal.Read
import proofs.«173513_j33174327394884_1_alg».proof.Proof.Gen.Pre_finite_inputs
import proofs.«173513_j33174327394884_1_alg».proof.Proof.KernelRun
import proofs.«173513_j33174327394884_1_alg».proof.Proof.RefValue
import Idealize.ShloMosaic.Adequacy
import Idealize.ShloMosaic.Init

noncomputable section

namespace Cert.Proof

open Idealize.ShloMosaic Idealize.SL.Sem

/-- Each program runs and leaves its arguments as they were: the two kernel programs by their frame runs, the reference by
    its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to its idealized reading. -/
theorem preserves : Cert.preserves_Kernel_KernelIdeal := trivial

/-- The two programs quantize the weight by the same chain of operations. -/
theorem quant_eq (w : FVec Ideal Cert.KernelIdeal.S2048x2048 .f32) :
    Cert.KernelIdeal.Entry.quant w = Cert.ReferenceIdeal.Read.val_main_v25 (F := Ideal) w := rfl

/-- Run from memories that agree on `x` and `w`, both programs end with the same array: the specification's, of `x` and
    the quantized `w`. -/
theorem algebraic : Cert.algebraic_KernelIdeal_ReferenceIdeal := by
  intro m ρ m' ρ' _ hagree
  refine ⟨fun c => Cert.RowNorm.linear (m ((c.tc : Thread Cert.KernelIdeal.nD Cert.KernelIdeal.τ).loc Cert.KernelIdeal.main_arg0))
      (Cert.KernelIdeal.Entry.quant (m ((c.tc : Thread Cert.KernelIdeal.nD Cert.KernelIdeal.τ).loc Cert.KernelIdeal.main_arg1))),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.ReferenceIdeal.RefValue.result_eq, (hagree c).1, (hagree c).2]
  exact congrArg (Cert.RowNorm.linear _) (quant_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
